-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_766" .f32 0x3AAB1CBE#32 ((1 / 766 : ℝ) : EReal)
  ∧ IdealRules.named_const.Statement Cert.KernelIdeal.κ "inv_766" .f32 0x3AAB1CBE#32 ((1 / 766 : ℝ) : EReal)
  ∧ IdealRules.named_const.Statement Cert.KernelIdeal.κ "inv_766" .f32 0x3AAB1CBE#32 ((1 / 766 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S65536 : Shape := ⟨1, ![65536]⟩
abbrev S512x3 : Shape := ⟨2, ![512, 3]⟩
abbrev S512 : Shape := ⟨1, ![512]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S512x3 : S_.BroadcastsInDim S512x3 (![] : Fin 0 → Fin S512x3.rank)
  reducesTo_S512x3_S_d0_1 : S512x3.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S65536x768 .f32) (main_arg1 : IVec S65536 32) (main_arg2 : FVec F S512x3 .f32) (main_arg3 : FVec F S512 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S512x3 .f32 := Host.absf main_arg2
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S65536x768 : Shape := ⟨2, ![65536, 768]⟩
abbrev S65536 : Shape := ⟨1, ![65536]⟩
abbrev S512x3 : Shape := ⟨2, ![512, 3]⟩
abbrev S512 : Shape := ⟨1, ![512]⟩
abbrev S65536x1 : Shape := ⟨2, ![65536, 1]⟩
abbrev S3x512 : Shape := ⟨2, ![3, 512]⟩
abbrev S1x512 : Shape := ⟨2, ![1, 512]⟩
abbrev S65536x512 : Shape := ⟨2, ![65536, 512]⟩
abbrev S1024x768 : Shape := ⟨2, ![1024, 768]⟩
abbrev S1024x1 : Shape := ⟨2, ![1024, 1]⟩
abbrev S1024x512 : Shape := ⟨2, ![1024, 512]⟩
abbrev S1024 : Shape := ⟨1, ![1024]⟩

abbrev nBuf : Space → Nat
  | .hbm => 8
  | .vmem => 8
  | .smem => 0
  | _ => 0

abbrev bufTy : (tb : Table) → Fin (tcTables nBuf tb) → BufTy
  | .hbm, ⟨0, _⟩ => ⟨S65536x768, .f32⟩
  | .hbm, ⟨1, _⟩ => ⟨S65536, .i32⟩
  | .hbm, ⟨2, _⟩ => ⟨S512x3, .f32⟩
  | .hbm, ⟨3, _⟩ => ⟨S512, .f32⟩
  | .hbm, ⟨4, _⟩ => ⟨S65536x1, .i32⟩
  | .hbm, ⟨5, _⟩ => ⟨S3x512, .f32⟩
  | .hbm, ⟨6, _⟩ => ⟨S1x512, .f32⟩
  | .hbm, ⟨7, _⟩ => ⟨S65536x512, .f32⟩
  | .local _ .vmem, ⟨0, _⟩ => ⟨S1024x768, .f32⟩
  | .local _ .vmem, ⟨1, _⟩ => ⟨S1024x768, .f32⟩
  | .local _ .vmem, ⟨2, _⟩ => ⟨S1024x1, .i32⟩
  | .local _ .vmem, ⟨3, _⟩ => ⟨S1024x1, .i32⟩
  | .local _ .vmem, ⟨4, _⟩ => ⟨S3x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S65536_S65536x1 : S65536.ShapeCasts S65536x1
  transposes_S512x3_S3x512_1_0 : S512x3.Transposes [1, 0] S3x512
  shapeCasts_S512_S1x512 : S512.ShapeCasts S1x512
  iota_S1024x768_d1_w32 : S1024x768.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x768 : S1024x1.Broadcasts S1024x768
  inb_S1024x768_S1024x768_0_0 : ∀ a, (![0, 0] : Fin 2 → Nat) a + S1024x768.size a ≤ S1024x768.size a
  h_S1024x768 : 0 < S1024x768.numel
  reduces_S1024x768_S1024 : S1024x768.Reduces [1] S1024
  shapeCasts_S1024_S1024x1 : S1024.ShapeCasts S1024x1
  slices_S1024x768_o0_0_S1024x1 : S1024x768.Slices ![0, 0] S1024x1
  slices_S1024x768_o0_1_S1024x1 : S1024x768.Slices ![0, 1] S1024x1
  slices_S1024x768_o0_766_S1024x1 : S1024x768.Slices ![0, 766] S1024x1
  slices_S1024x768_o0_767_S1024x1 : S1024x768.Slices ![0, 767] S1024x1
  inb_S3x512_S1x512_0_0 : ∀ a, (![0, 0] : Fin 2 → Nat) a + S1x512.size a ≤ S3x512.size a
  h_S1x512 : 0 < S1x512.numel
  shapeCasts_S1x512_S1x512 : S1x512.ShapeCasts S1x512
  inb_S3x512_S1x512_1_0 : ∀ a, (![1, 0] : Fin 2 → Nat) a + S1x512.size a ≤ S3x512.size a
  inb_S3x512_S1x512_2_0 : ∀ a, (![2, 0] : Fin 2 → Nat) a + S1x512.size a ≤ S3x512.size a
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  inb_S1024x512_S1024x512_0_0 : ∀ a, (![0, 0] : Fin 2 → Nat) a + S1024x512.size a ≤ S1024x512.size a
  h_S1024x512 : 0 < S1024x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S65536x768.size a
  hwx0_0 : ∀ i : grid0.Coords, EltTy.bits .f32 = 32 ∨ (Rect.block (s := S65536x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x512.size a ≤ S3x512.size a
  hwx0_2 : ∀ i : grid0.Coords, EltTy.bits .f32 = 32 ∨ (Rect.block (s := S3x512) S3x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S65536x512.size a
  hwx0_4 : ∀ i : grid0.Coords, EltTy.bits .f32 = 32 ∨ (Rect.block (s := S65536x512) S1024x512.size (cc0_transform_4 i) (hinb0_4 i)).WholeWords (EltTy.packing .f32)

variable [Facts₀]

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x768 : Shape := ⟨2, ![65536, 768]⟩
abbrev S65536 : Shape := ⟨1, ![65536]⟩
abbrev S512x3 : Shape := ⟨2, ![512, 3]⟩
abbrev S512 : Shape := ⟨1, ![512]⟩
abbrev S768 : Shape := ⟨1, ![768]⟩
abbrev S1x768 : Shape := ⟨2, ![1, 768]⟩
abbrev S65536x1 : Shape := ⟨2, ![65536, 1]⟩
abbrev S_ : Shape := ⟨0, ![]⟩
abbrev S65536x766 : Shape := ⟨2, ![65536, 766]⟩
abbrev S65536x3 : Shape := ⟨2, ![65536, 3]⟩
abbrev S3x512 : Shape := ⟨2, ![3, 512]⟩
abbrev S65536x512 : Shape := ⟨2, ![65536, 512]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S65536, .i32⟩
  | .hbm, ⟨2, _⟩ => ⟨S512x3, .f32⟩
  | .hbm, ⟨3, _⟩ => ⟨S512, .f32⟩
  | .hbm, ⟨4, _⟩ => ⟨S768, .i32⟩
  | .hbm, ⟨5, _⟩ => ⟨S1x768, .i32⟩
  | .hbm, ⟨6, _⟩ => ⟨S65536x1, .i32⟩
  | .hbm, ⟨7, _⟩ => ⟨S65536x768, .i32⟩
  | .hbm, ⟨8, _⟩ => ⟨S65536x768, .i32⟩
  | .hbm, ⟨9, _⟩ => ⟨S65536x768, .i1⟩
  | .hbm, ⟨10, _⟩ => ⟨S_, .f32⟩
  | .hbm, ⟨11, _⟩ => ⟨S65536x768, .f32⟩
  | .hbm, ⟨12, _⟩ => ⟨S65536x768, .f32⟩
  | .hbm, ⟨13, _⟩ => ⟨S65536x766, .f32⟩
  | .hbm, ⟨14, _⟩ => ⟨S_, .f32⟩
  | .hbm, ⟨15, _⟩ => ⟨S65536, .f32⟩
  | .hbm, ⟨16, _⟩ => ⟨S_, .f32⟩
  | .hbm, ⟨17, _⟩ => ⟨S65536, .f32⟩
  | .hbm, ⟨18, _⟩ => ⟨S65536, .f32⟩
  | .hbm, ⟨19, _⟩ => ⟨S65536x766, .f32⟩
  | .hbm, ⟨20, _⟩ => ⟨S_, .f32⟩
  | .hbm, ⟨21, _⟩ => ⟨S65536, .f32⟩
  | .hbm, ⟨22, _⟩ => ⟨S_, .f32⟩
  | .hbm, ⟨23, _⟩ => ⟨S65536, .f32⟩
  | .hbm, ⟨24, _⟩ => ⟨S65536, .f32⟩
  | .hbm, ⟨25, _⟩ => ⟨S65536x766, .f32⟩
  | .hbm, ⟨26, _⟩ => ⟨S_, .f32⟩
  | .hbm, ⟨27, _⟩ => ⟨S65536, .f32⟩
  | .hbm, ⟨28, _⟩ => ⟨S_, .f32⟩
  | .hbm, ⟨29, _⟩ => ⟨S65536, .f32⟩
  | .hbm, ⟨30, _⟩ => ⟨S65536, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S65536x3, .f32⟩
  | .hbm, ⟨35, _⟩ => ⟨S3x512, .f32⟩
  | .hbm, ⟨36, _⟩ => ⟨S65536x512, .f32⟩
  | .hbm, ⟨37, _⟩ => ⟨S1x512, .f32⟩
  | .hbm, ⟨38, _⟩ => ⟨S65536x512, .f32⟩
  | .hbm, ⟨39, _⟩ => ⟨S65536x512, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S65536_S65536x1_0 : S65536.BroadcastsInDim S65536x1 (![0] : Fin 1 → Fin S65536x1.rank)
  bcast_S1x768_S65536x768_0_1 : S1x768.BroadcastsInDim S65536x768 (![0, 1] : Fin 2 → Fin S65536x768.rank)
  bcast_S65536x1_S65536x768_0_1 : S65536x1.BroadcastsInDim S65536x768 (![0, 1] : Fin 2 → Fin S65536x768.rank)
  bcast_S_S65536x768 : S_.BroadcastsInDim S65536x768 (![] : Fin 0 → Fin S65536x768.rank)
  slices_S65536x768_S65536x766_0_0 : S65536x768.Slices ![0, 0] S65536x766
  reducesTo_S65536x766_S65536_d1 : S65536x766.ReducesTo [1] S65536
  h_S_ : 0 < S_.numel
  bcast_S_S65536 : S_.BroadcastsInDim S65536 (![] : Fin 0 → Fin S65536.rank)
  slices_S65536x768_S65536x766_0_1 : S65536x768.Slices ![0, 1] S65536x766
  slices_S65536x768_S65536x766_0_2 : S65536x768.Slices ![0, 2] S65536x766
  concatenates_S65536x1_S65536x1_S65536x1_S65536x3_d1 : Shape.Concatenates [S65536x1, S65536x1, S65536x1] S65536x3 1
  transposes_S512x3_S3x512_1_0 : S512x3.Transposes [1, 0] S3x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  dot_S65536x3_S3x512_S65536x512_1_0_0_1_n_n_wf : DotDims.WF S65536x3 S3x512 S65536x512 [1] [0] [0] [1] [] []

variable [Facts₀]

def dot_S65536x3_S3x512_S65536x512_1_0_0_1_n_n : DotDims S65536x3 S3x512 S65536x512 where
  lhsContracting := [1]
  rhsContracting := [0]
  lhsNonContracting := [0]
  rhsNonContracting := [1]
  lhsBatch := []
  rhsBatch := []
  wf := dot_S65536x3_S3x512_S65536x512_1_0_0_1_n_n_wf

class Facts : Prop extends Facts₀ where

variable [Facts]
-- ==== Proof.Spec.lean ====
/-
  The patch embedding's entry as a function of one row, and the law joining its two arrangements.

  A row of 768 entries is padded with zeros from the row's length on. A convolution of three taps over the 766 windows
  of the padded row, averaged over the windows, is by linearity the three window means weighted by the taps: tap k
  meets the entries k, …, k + 765. The sum of 766 consecutive entries out of 768 is the sum of the whole row less the
  two entries left out. taps is written with the whole-row sum and the product with 1/766; taps_eq_means says it is
  the three window sums taken directly and divided by 766, when the row's entries are real numbers (a subtraction
  cancels only a finite entry: with an infinite one the whole-row form is ⊤ - ⊤).
-/
import Idealize.ShloMosaic.PureOps.Ideal
import Idealize.ShloMosaic.PureOps.Ideal.Laws
import Idealize.ShloMosaic.Lib.ValueIdx

noncomputable section

open scoped BigOperators

namespace Cert.PatchMean

open Idealize.ShloMosaic

/-- A row padded with zeros: entry j is kept where j is below the row's length (the signed order of 32-bit
    words) and is zero from the length on. -/
def pad (len : BitVec 32) (row : Fin 768 → EReal) : Fin 768 → EReal := fun j =>
  Scalar.select (IntOp.cmpi .slt (BitVec.ofNat 32 j.val) len) (row j) 0

/-- A padded row of real numbers is a row of real numbers. -/
theorem pad_real (len : BitVec 32) (row : Fin 768 → EReal) (h : ∀ j, ∃ a : ℝ, row j = (a : EReal)) (j : Fin 768) :
    ∃ a : ℝ, pad len row j = (a : EReal) := by
  unfold pad Scalar.select
  split
  · exact h j
  · exact ⟨0, rfl⟩

/-- The reciprocal of the number of windows, 1/766. -/
def invT : EReal := ((1 / 766 : ℝ) : EReal)

/-- The three window means weighted by the taps, each mean as the whole row's sum less the two entries its window
    leaves out, times 1/766. -/
def taps (r : Fin 768 → EReal) (w0 w1 w2 : EReal) : EReal :=
  ((∑ j, r j) - r 766 - r 767) * invT * w0 + ((∑ j, r j) - r 0 - r 767) * invT * w1
    + ((∑ j, r j) - r 0 - r 1) * invT * w2

/-- THE RESULT as one function of the argument arrays: entry (n, d) is the taps of row n of the input, padded at the
    row's length, with the three taps of output channel d, plus the channel's bias. -/
def embed (x : FVec Ideal ⟨2, ![65536, 768]⟩ .f32) (len : IVec ⟨1, ![65536]⟩ 32) (w : FVec Ideal ⟨2, ![512, 3]⟩ .f32)
    (b : FVec Ideal ⟨1, ![512]⟩ .f32) : FVec Ideal ⟨2, ![65536, 512]⟩ .f32 := fun i =>
  taps (pad (len (ValueIdx.ix1 (i 0))) (fun j => x (ValueIdx.ix2 (i 0) j)))
      (w (ValueIdx.ix2 (i 1) (0 : Fin 3))) (w (ValueIdx.ix2 (i 1) (1 : Fin 3))) (w (ValueIdx.ix2 (i 1) (2 : Fin 3)))
    + b (ValueIdx.ix1 (i 1))

/-- The coercion of the reals into the extended reals commutes with a sum over Fin n. -/
theorem coe_sum_fin {n : ℕ} (f : Fin n → ℝ) : (∑ k, (f k : EReal)) = ((∑ k, f k : ℝ) : EReal) := by
  induction n with
  | zero => simp
  | succ n ih => rw [Fin.sum_univ_castSucc, Fin.sum_univ_castSucc, ih, EReal.coe_add]

/-- A real row's sum less its last two entries is the sum of its first 766. -/
theorem sum_drop_last_two (a : Fin 768 → ℝ) :
    (∑ j, a j) - a 766 - a 767 = ∑ k : Fin 766, a ⟨k.val, by have := k.isLt; omega⟩ := by
  rw [Fin.sum_univ_castSucc (n := 767), Fin.sum_univ_castSucc (n := 766)]
  show (∑ k : Fin 766, a ⟨k.val, _⟩) + a 766 + a 767 - a 766 - a 767 = _
  ring

/-- A real row's sum less its first and its last entry is the sum of the 766 between. -/
theorem sum_drop_ends (a : Fin 768 → ℝ) :
    (∑ j, a j) - a 0 - a 767 = ∑ k : Fin 766, a ⟨1 + k.val, by have := k.isLt; omega⟩ := by
  rw [Fin.sum_univ_castSucc (n := 767), Fin.sum_univ_succ (n := 766)]
  have e : ∀ k : Fin 766, a (Fin.castSucc (Fin.succ k)) = a ⟨1 + k.val, by have := k.isLt; omega⟩ := fun k =>
    congrArg a (Fin.ext (by show k.val + 1 = 1 + k.val; omega))
  simp only [e]
  show a 0 + (∑ k : Fin 766, a ⟨1 + k.val, _⟩) + a 767 - a 0 - a 767 = _
  ring

/-- A real row's sum less its first two entries is the sum of its last 766. -/
theorem sum_drop_first_two (a : Fin 768 → ℝ) :
    (∑ j, a j) - a 0 - a 1 = ∑ k : Fin 766, a ⟨2 + k.val, by have := k.isLt; omega⟩ := by
  rw [Fin.sum_univ_succ (n := 767), Fin.sum_univ_succ (n := 766)]
  have e : ∀ k : Fin 766, a (Fin.succ (Fin.succ k)) = a ⟨2 + k.val, by have := k.isLt; omega⟩ := fun k =>
    congrArg a (Fin.ext (by show k.val + 1 + 1 = 2 + k.val; omega))
  simp only [e]
  show a 0 + (a 1 + ∑ k : Fin 766, a ⟨2 + k.val, _⟩) - a 0 - a 1 = _
  ring

/-- THE LAW: on a row of real numbers the whole-row form of the weighted window means is the three window sums
    taken directly (each from zero) and divided by 766. -/
theorem taps_eq_means (r : Fin 768 → EReal) (hr : ∀ j, ∃ a : ℝ, r j = (a : EReal)) (w0 w1 w2 : EReal) :
    taps r w0 w1 w2 =
      Ideal.div (0 + ∑ k : Fin 766, r ⟨k.val, by have := k.isLt; omega⟩) ((766 : ℝ) : EReal) * w0
      + Ideal.div (0 + ∑ k : Fin 766, r ⟨1 + k.val, by have := k.isLt; omega⟩) ((766 : ℝ) : EReal) * w1
      + Ideal.div (0 + ∑ k : Fin 766, r ⟨2 + k.val, by have := k.isLt; omega⟩) ((766 : ℝ) : EReal) * w2 := by
  choose a ha using hr
  obtain rfl : r = fun j => (a j : EReal) := funext ha
  unfold taps invT
  simp only [Ideal.div_coe (by norm_num : (766 : ℝ) ≠ 0), zero_add, coe_sum_fin, ← EReal.coe_sub,
    sum_drop_last_two, sum_drop_ends, sum_drop_first_two]

end Cert.PatchMean

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.Payload.lean ====
/-
  The kernel body's arithmetic at an entry of its block.

  The body reads a block of 1024 rows of the input (1024 x 768), the rows' lengths as a column (1024 x 1), the three tap
  rows (each 1 x 512) and the bias row (1 x 512). It pads each row with zeros from its length on (a comparison of the
  column index with the length broadcast along the row), sums each padded row whole, takes the first two and the last two
  columns of the padded block, forms the three window means as the whole sum less two columns times 1/766, and combines
  them with the tap rows. Entry (p, q) of the result is taps of row p's padded entries and column q's three taps.
-/
import proofs.«110006_j15994458211143_1_alg».proof.Proof.Gen.KernelIdeal.Value
import proofs.«110006_j15994458211143_1_alg».proof.Proof.Spec
import proofs.«110006_j15994458211143_1_alg».proof.Proof.LibKeepdims
import Idealize.ShloMosaic.Lib.ValueLayout
import Idealize.ShloMosaic.PureOps.IdealRules

noncomputable section

open scoped BigOperators

namespace Cert.PatchMean

open Cert.KernelIdeal Cert.KernelIdeal.Gen Idealize.ShloMosaic Idealize.ShloMosaic.ValueIdx

/-- The kernel's named reciprocal denotes the rational 1/766 at the ideal values, by the certificate's table. -/
theorem inv_766 : Named.named (F := Ideal) Cert.KernelIdeal.κ "inv_766" (φ := .f32) 0x3AAB1CBE#32 = invT :=
  IdealRules.named_const.ideal_named_scalar _ _ _ _ rfl

/-- The block padded: row p keeps its entry in column j where j is below the row's length. -/
def blockPad (P0 : Vec Ideal S1024x1 .i32) (P1 : Vec Ideal S1024x768 .f32) : FVec Ideal S1024x768 .f32 :=
  select (cmpi .slt (iota .tc S1024x768 32 [1] Facts₀.iota_S1024x768_d1_w32)
      (broadcastTo S1024x768 (shapeCast S1024x1 P0 Facts₀.shapeCasts_S1024x1_S1024x1) Facts₀.broadcasts_S1024x1_S1024x768))
    P1 (broadcast S1024x768 (Scalar.ofBits (F := Ideal) .f32 0x00000000#32))

/-- Entry (p, j) of the padded block is entry j of row p padded at the row's length. -/
theorem blockPad_apply (P0 : Vec Ideal S1024x1 .i32) (P1 : Vec Ideal S1024x768 .f32) (p : Fin 1024) (j : Fin 768) :
    blockPad P0 P1 (ix2 p j) = pad (P0 (ix2 p (0 : Fin 1))) (fun j => P1 (ix2 p j)) j := by
  unfold blockPad pad
  rw [select_apply]
  show Scalar.select (IntOp.cmpi .slt (iota .tc S1024x768 32 [1] _ (ix2 p j)) (broadcastTo S1024x768 _ _ (ix2 p j))) _ _ = _
  rw [iota_single_apply, broadcastTo_a1_ab_apply, shapeCast_self, broadcast_apply]
  show Scalar.select _ _ (Ideal.ofBits .f32 0x00000000#32) = _
  rw [Ideal.ofBits_zero_f32]

/-- ENTRY (p, q) OF THE BODY'S WEIGHTED MEANS: the taps of row p's padded entries and of column q of the three tap rows. -/
theorem pay2_apply (P0 : Vec Ideal S1024x1 .i32) (P1 : Vec Ideal S1024x768 .f32) (P2 P3 P4 : Vec Ideal S1x512 .f32)
    (p : Fin 1024) (q : Fin 512) :
    k0_pay2 (F := Ideal) P0 P1 P2 P3 P4 (ix2 p q)
      = taps (pad (P0 (ix2 p (0 : Fin 1))) (fun j => P1 (ix2 p j))) (P2 (ix2 (0 : Fin 1) q)) (P3 (ix2 (0 : Fin 1) q)) (P4 (ix2 (0 : Fin 1) q)) := by
  have s0 : extractStridedSlice S1024x1 ![0, 0] (blockPad P0 P1) Facts₀.slices_S1024x768_o0_0_S1024x1 (ix2 p (0 : Fin 1))
      = blockPad P0 P1 (ix2 p (0 : Fin 768)) := slice2_axis1_apply 0 _ _ p 0 0 rfl
  have s1 : extractStridedSlice S1024x1 ![0, 1] (blockPad P0 P1) Facts₀.slices_S1024x768_o0_1_S1024x1 (ix2 p (0 : Fin 1))
      = blockPad P0 P1 (ix2 p (1 : Fin 768)) := slice2_axis1_apply 1 _ _ p 0 1 rfl
  have s766 : extractStridedSlice S1024x1 ![0, 766] (blockPad P0 P1) Facts₀.slices_S1024x768_o0_766_S1024x1 (ix2 p (0 : Fin 1))
      = blockPad P0 P1 (ix2 p (766 : Fin 768)) := slice2_axis1_apply 766 _ _ p 0 766 rfl
  have s767 : extractStridedSlice S1024x1 ![0, 767] (blockPad P0 P1) Facts₀.slices_S1024x768_o0_767_S1024x1 (ix2 p (0 : Fin 1))
      = blockPad P0 P1 (ix2 p (767 : Fin 768)) := slice2_axis1_apply 767 _ _ p 0 767 rfl
  unfold k0_pay2
  rw [show (select (cmpi CmpIPredicate.slt (iota Kind.tc S1024x768 32 [1] Facts₀.iota_S1024x768_d1_w32)
      (broadcastTo S1024x768 (shapeCast S1024x1 P0 Facts₀.shapeCasts_S1024x1_S1024x1) Facts₀.broadcasts_S1024x1_S1024x768))
      P1 (broadcast S1024x768 (FloatOps.ofBits (F := Ideal) FTy.f32 0#32))) = blockPad P0 P1 from rfl]
  simp only [addf_apply, mulf_apply, subf_apply, broadcast_apply, broadcastTo_a1_ab_apply, broadcastTo_1b_ab_apply,
    shapeCast_self, shapeCast_a_a1_apply, laneSum_ab_apply, s0, s1, s766, s767, blockPad_apply, inv_766]
  have hsum := laneSum_ab_apply (a := 1024) (b := 768) (blockPad P0 P1) (0#32) Facts₀.reduces_S1024x768_S1024 (.inl rfl) rfl p
  unfold taps
  rw [hsum]
  simp only [blockPad_apply]

end Cert.PatchMean

end
-- ==== Proof.KernelValue.lean ====
/-
  The kernel's result array is embed of the argument arrays.

  Grid point t works on rows 1024 t, …, 1024 t + 1023: it is given block t of the input (1024 x 768), block t of the
  lengths' column (1024 x 1), the whole transposed weight matrix (3 x 512) and the whole bias row (1 x 512), and writes
  block t of the result (1024 x 512). The lengths' column, the transposed weights and the bias row are written by the
  host before the region (a reshape, a transpose, a reshape of the arguments). Entry (p, q) of what point t writes is
  the taps of row 1024 t + p padded at its length with channel q's three taps, plus channel q's bias — entry
  (1024 t + p, q) of embed. The 64 blocks cover the result's rows.
-/
import proofs.«110006_j15994458211143_1_alg».proof.Proof.Payload
import Idealize.ShloMosaic.Lib.StableHlo.Run

set_option maxRecDepth 16384

noncomputable section

open scoped BigOperators

namespace Cert.PatchMean

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## What the body leaves in its output block, entry by entry -/

/-- ENTRY (p, q) OF THE OUTPUT BLOCK after the body, from the four input blocks: the taps of row p of the input block
    padded at row p's length, with column q of the three tap rows, plus column q of the bias row. -/
theorem out_apply (x0 : Vec Ideal S1024x768 .f32) (x1 : Vec Ideal S1024x1 .i32) (x2 : Vec Ideal S3x512 .f32)
    (x3 : Vec Ideal S1x512 .f32) (p : Fin 1024) (q : Fin 512) :
    out0_4 (F := Ideal) x0 x1 x2 x3 (ix2 p q)
      = taps (pad (x1 (ix2 p (0 : Fin 1))) (fun j => x0 (ix2 p j)))
          (x2 (ix2 (0 : Fin 3) q)) (x2 (ix2 (1 : Fin 3) q)) (x2 (ix2 (2 : Fin 3) q)) + x3 (ix2 (0 : Fin 1) q) := by
  unfold out0_4
  rw [Cert.KernelIdeal.Value.canon4_eq]
  show k0_pay2 (F := Ideal) _ _ _ _ _ (Cert.KernelIdeal.Value.ix4_0 (ix2 p q)) + View.ld x3 r0_5 (Cert.KernelIdeal.Value.ix4_1 (ix2 p q)) = _
  rw [show Cert.KernelIdeal.Value.ix4_0 (ix2 p q) = ix2 p q from
      funext fun a => Fin.ext (by match a with | ⟨0, _⟩ => rfl | ⟨1, _⟩ => rfl),
    show Cert.KernelIdeal.Value.ix4_1 (ix2 p q) = ix2 (0 : Fin 1) q from
      funext fun a => Fin.ext (by match a with | ⟨0, _⟩ => rfl | ⟨1, _⟩ => rfl),
    pay2_apply]
  have l0 : View.ld x1 r0_0 (ix2 p (0 : Fin 1)) = x1 (ix2 p (0 : Fin 1)) :=
    congrArg x1 (funext fun a => Fin.ext (by
      match a with
      | ⟨0, _⟩ => show 0 + 1 * p.val = p.val; omega
      | ⟨1, _⟩ => show 0 + 1 * 0 = 0; rfl))
  have l1 : (fun j : Fin 768 => View.ld x0 r0_1 (ix2 p j)) = fun j => x0 (ix2 p j) :=
    funext fun j => congrArg x0 (funext fun a => Fin.ext (by
      match a with
      | ⟨0, _⟩ => show 0 + 1 * p.val = p.val; omega
      | ⟨1, _⟩ => show 0 + 1 * j.val = j.val; omega))
  have l2 : View.ld x2 r0_2 (ix2 (0 : Fin 1) q) = x2 (ix2 (0 : Fin 3) q) :=
    congrArg x2 (funext fun a => Fin.ext (by
      match a with
      | ⟨0, _⟩ => show 0 + 1 * 0 = 0; rfl
      | ⟨1, _⟩ => show 0 + 1 * q.val = q.val; omega))
  have l3 : View.ld x2 r0_3 (ix2 (0 : Fin 1) q) = x2 (ix2 (1 : Fin 3) q) :=
    congrArg x2 (funext fun a => Fin.ext (by
      match a with
      | ⟨0, _⟩ => show 1 + 1 * 0 = 1; rfl
      | ⟨1, _⟩ => show 0 + 1 * q.val = q.val; omega))
  have l4 : View.ld x2 r0_4 (ix2 (0 : Fin 1) q) = x2 (ix2 (2 : Fin 3) q) :=
    congrArg x2 (funext fun a => Fin.ext (by
      match a with
      | ⟨0, _⟩ => show 2 + 1 * 0 = 2; rfl
      | ⟨1, _⟩ => show 0 + 1 * q.val = q.val; omega))
  have l5 : View.ld x3 r0_5 (ix2 (0 : Fin 1) q) = x3 (ix2 (0 : Fin 1) q) :=
    congrArg x3 (funext fun a => Fin.ext (by
      match a with
      | ⟨0, _⟩ => show 0 + 1 * 0 = 0; rfl
      | ⟨1, _⟩ => show 0 + 1 * q.val = q.val; omega))
  rw [l0, l1, l2, l3, l4, l5]

/-! ## The arrays the host writes before the region -/

/-- The lengths' column is the lengths reshaped. -/
theorem V_lengths (c : Dev nD) : (V m c main_v0 : S65536x1.Idx → BitVec 32)
    = shapeCast S65536x1 (m ((c : Thread nD τ).loc main_arg1)) Facts₀.shapeCasts_S65536_S65536x1 := by
  dsimp only [Gen.V, Gen.hostOps0]
  after_results
  rfl

/-- The tap rows are the weights transposed. -/
theorem V_taps (c : Dev nD) : (V m c main_v1 : S3x512.Idx → EReal)
    = transpose S3x512 [1, 0] (m ((c : Thread nD τ).loc main_arg2)) Facts₀.transposes_S512x3_S3x512_1_0 := by
  dsimp only [Gen.V, Gen.hostOps0]
  after_results

/-- The bias row is the bias reshaped. -/
theorem V_bias (c : Dev nD) : (V m c main_v2 : S1x512.Idx → EReal)
    = shapeCast S1x512 (m ((c : Thread nD τ).loc main_arg3)) Facts₀.shapeCasts_S512_S1x512 := by
  dsimp only [Gen.V, Gen.hostOps0]
  after_results
  rfl

/-! ## From the blocks to the array -/

/-- The printed index maps over the grid: the input's, the lengths' and the result's blocks move down the rows with
    the point, the weights' and the bias's stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The result as the kernel's memory has the arguments. -/
abbrev result (c : Dev nD) : S65536x512.Idx → EReal :=
  embed (m ((c : Thread nD τ).loc main_arg0)) (m ((c : Thread nD τ).loc main_arg1))
    (m ((c : Thread nD τ).loc main_arg2)) (m ((c : Thread nD τ).loc main_arg3))

/-- WHAT POINT t WRITES BACK is block t of embed of the arguments. -/
theorem flushed_eq (c : Dev nD) (t : Fin cfg0.N) :
    (dats m 0 c).flushed 4 t = ((cfg0.win 4).blk t).view.read (Elt Ideal) (result m c) := by
  rw [Cert.KernelIdeal.Value.flushed4]
  obtain ⟨e00, e01, e10, e11, e20, e21, e30, e31, e40, e41⟩ := idx_facts t
  have ht : t.val < 64 := lt_of_lt_of_eq t.isLt N_0
  funext y
  obtain ⟨p, q, rfl⟩ : ∃ (p : Fin 1024) (q : Fin 512), y = ix2 p q := ⟨y 0, y 1, eq_ix2 y⟩
  show out0_4 (F := Ideal) (iblk m c 0 t) (iblk m c 1 t) (iblk m c 2 t) (iblk m c 3 t) (ix2 p q)
    = result m c (((cfg0.win 4).blk t).view.emb (ix2 p q))
  rw [out_apply]
  -- the row of the arrays this entry belongs to
  have hn : 1024 * t.val + p.val < 65536 := by have := p.isLt; omega
  have hemb : ((cfg0.win 4).blk t).view.emb (ix2 p q) = ix2 (⟨1024 * t.val + p.val, hn⟩ : Fin 65536) q := by
    funext a; apply Fin.ext
    match a with
    | ⟨0, _⟩ => show win0_4.index t (0 : Fin 2) * 1024 + 1 * p.val = 1024 * t.val + p.val; rw [e40]; omega
    | ⟨1, _⟩ => show win0_4.index t (1 : Fin 2) * 512 + 1 * q.val = q.val; rw [e41]; omega
  rw [hemb]
  -- each input block read where the entry needs it
  have b0 : (fun j : Fin 768 => (iblk m c 0 t : Vec Ideal S1024x768 .f32) (ix2 p j))
      = fun j => (m ((c : Thread nD τ).loc main_arg0) : S65536x768.Idx → EReal) (ix2 (⟨1024 * t.val + p.val, hn⟩ : Fin 65536) j) := by
    funext j
    show V m c main_arg0 (((cfg0.win 0).blk t).view.emb (ix2 p j)) = _
    rw [V_main_arg0]
    refine congrArg _ (funext fun a => Fin.ext ?_)
    match a with
    | ⟨0, _⟩ => show win0_0.index t (0 : Fin 2) * 1024 + 1 * p.val = 1024 * t.val + p.val; rw [e00]; omega
    | ⟨1, _⟩ => show win0_0.index t (1 : Fin 2) * 768 + 1 * j.val = j.val; rw [e01]; omega
  have b1 : (iblk m c 1 t : Vec Ideal S1024x1 .i32) (ix2 p (0 : Fin 1))
      = (m ((c : Thread nD τ).loc main_arg1) : S65536.Idx → BitVec 32) (ix1 (⟨1024 * t.val + p.val, hn⟩ : Fin 65536)) := by
    show V m c main_v0 (((cfg0.win 1).blk t).view.emb (ix2 p (0 : Fin 1))) = _
    rw [V_lengths]
    refine Eq.trans (congrArg _ (funext fun a => Fin.ext ?_))
      (shapeCast_a_a1_apply _ Facts₀.shapeCasts_S65536_S65536x1 (⟨1024 * t.val + p.val, hn⟩ : Fin 65536) (0 : Fin 1))
    match a with
    | ⟨0, _⟩ => show win0_1.index t (0 : Fin 2) * 1024 + 1 * p.val = 1024 * t.val + p.val; rw [e10]; omega
    | ⟨1, _⟩ => show win0_1.index t (1 : Fin 2) * 1 + 1 * 0 = 0; rw [e11]
  have b2 : ∀ k : Fin 3, (iblk m c 2 t : Vec Ideal S3x512 .f32) (ix2 k q)
      = (m ((c : Thread nD τ).loc main_arg2) : S512x3.Idx → EReal) (ix2 q k) := by
    intro k
    show V m c main_v1 (((cfg0.win 2).blk t).view.emb (ix2 k q)) = _
    rw [V_taps]
    refine Eq.trans (congrArg _ (funext fun a => Fin.ext ?_))
      (transpose_ix2_apply _ Facts₀.transposes_S512x3_S3x512_1_0 k q)
    match a with
    | ⟨0, _⟩ => show win0_2.index t (0 : Fin 2) * 3 + 1 * k.val = k.val; rw [e20]; omega
    | ⟨1, _⟩ => show win0_2.index t (1 : Fin 2) * 512 + 1 * q.val = q.val; rw [e21]; omega
  have b3 : (iblk m c 3 t : Vec Ideal S1x512 .f32) (ix2 (0 : Fin 1) q)
      = (m ((c : Thread nD τ).loc main_arg3) : S512.Idx → EReal) (ix1 q) := by
    show V m c main_v2 (((cfg0.win 3).blk t).view.emb (ix2 (0 : Fin 1) q)) = _
    rw [V_bias]
    refine Eq.trans (congrArg _ (funext fun a => Fin.ext ?_))
      (shapeCast_a_1a_apply _ Facts₀.shapeCasts_S512_S1x512 (0 : Fin 1) q)
    match a with
    | ⟨0, _⟩ => show win0_3.index t (0 : Fin 2) * 1 + 1 * 0 = 0; rw [e30]
    | ⟨1, _⟩ => show win0_3.index t (1 : Fin 2) * 512 + 1 * q.val = q.val; rw [e31]; omega
  rw [b0, b1, b2 0, b2 1, b2 2, b3]
  rfl

/-- An index of the result is in point t's block iff each coordinate is in the block's range on its axis. -/
theorem mem_blk (t : Fin cfg0.N) (i : S65536x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v3).slice (win0_4.rect t)).set ↔ _
  rw [View.set_slice_whole, Rect.mem_set_unit]
  exact Iff.rfl

/-- Every entry of the result is in the block of the point its row belongs to. -/
theorem cover (i : S65536x512.Idx) : ∃ t : Fin cfg0.N, (cfg0.win 4).flush t = true ∧ i ∈ ((cfg0.win 4).blk t).view.set := by
  have hi0 : (i 0).val < 65536 := (i 0).isLt
  have hi1 : (i 1).val < 512 := (i 1).isLt
  have hN : cfg0.N = 64 := N_0
  let t : Fin cfg0.N := ⟨(i 0).val / 1024, by rw [hN]; omega⟩
  obtain ⟨-, -, -, -, -, -, -, -, e40, e41⟩ := idx_facts t
  refine ⟨t, flush0_4 t, ?_⟩
  rw [mem_blk]
  intro a
  have htv : t.val = (i 0).val / 1024 := rfl
  match a with
  | ⟨0, _⟩ => show win0_4.index t (0 : Fin 2) * 1024 ≤ (i 0).val ∧ (i 0).val < win0_4.index t (0 : Fin 2) * 1024 + 1024; rw [e40]; omega
  | ⟨1, _⟩ => show win0_4.index t (1 : Fin 2) * 512 ≤ (i 1).val ∧ (i 1).val < win0_4.index t (1 : Fin 2) * 512 + 512; rw [e41]; omega

/-- THE RESULT ARRAY after the run is embed of the arguments. -/
theorem final (c : Dev nD) : (dats m 0 c).arrAt 4 cfg0.N = result m c :=
  (dats m 0 c).arrAt_eq_of_cover 4 (result m c) (fun t _ => flushed_eq m c t) cover

/-- THE KERNEL'S RUN, READ: every weakly fair execution terminates with the result array at embed of the arguments and
    the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.PatchMean

end
-- ==== Proof.RefRead.lean ====
/-
  The reference, read at an entry.

  The reference pads the input with zeros where the column index (an iota along the row) is not below the row's length,
  cuts the three windows of 766 columns starting at columns 0, 1 and 2, sums each window along the row from zero and
  divides by 766, stacks the three means as the columns of an N x 3 matrix, multiplies it with the transposed weights and
  adds the bias broadcast over the rows. Entry (n, d) of the result is the three window means of row n weighted by the
  three taps of channel d, plus the bias of channel d; on a finite input that is embed (the law of the specification).
-/
import proofs.«110006_j15994458211143_1_alg».proof.Proof.Gen.ReferenceIdeal.Read
import proofs.«110006_j15994458211143_1_alg».proof.Proof.Spec

noncomputable section

open scoped BigOperators

namespace Cert.PatchMean

open Cert.ReferenceIdeal Cert.ReferenceIdeal.Gen Cert.ReferenceIdeal.Read Idealize.ShloMosaic Idealize.ShloMosaic.ValueIdx

/-- The divisor's word denotes the real 766. -/
theorem ofBits_766 : Ideal.ofBits .f32 0x443F8000#32 = ((766 : ℝ) : EReal) := by
  simp [Ideal.ofBits, Ideal.ieee, -EReal.coe_mul]; norm_num

variable (x0 : (⟨S65536x768, .f32⟩ : BufTy).Contents (Elt Ideal)) (x1 : (⟨S65536, .i32⟩ : BufTy).Contents (Elt Ideal))
  (x2 : (⟨S512x3, .f32⟩ : BufTy).Contents (Elt Ideal)) (x3 : (⟨S512, .f32⟩ : BufTy).Contents (Elt Ideal))

/-- Entry (n, j) of the reference's padded input is entry j of row n padded at the row's length. -/
theorem ref_pad_apply (n : Fin 65536) (j : Fin 768) :
    val_main_v6 (F := Ideal) x0 x1 (ix2 n j) = pad (x1 (ix1 n)) (fun j => x0 (ix2 n j)) j := by
  rw [val_main_v6_apply, val_main_v5_apply, val_main_v3_apply, val_main_v1_apply, val_main_v0_apply, val_main_v4_apply,
    val_main_v2_apply, val_main_call0_v0_apply, val_main_cst_apply]
  show Scalar.select (IntOp.cmpi .slt (BitVec.ofNat 32 j.val) (x1 _)) (x0 (ix2 n j)) (Ideal.ofBits .f32 0x00000000#32) = _
  rw [Ideal.ofBits_zero_f32, show idx_main_v2 (idx_main_v4 (ix2 n j)) = ix1 n from
    funext fun a => Fin.ext (by match a with | ⟨0, _⟩ => rfl)]
  rfl

/-- The mean of the window starting at column 0, at row n. -/
theorem ref_mean0 (n : Fin 65536) :
    val_main_v10 (F := Ideal) x0 x1 (ix1 n)
      = Ideal.div (0 + ∑ k : Fin 766, pad (x1 (ix1 n)) (fun j => x0 (ix2 n j)) ⟨k.val, by have := k.isLt; omega⟩) ((766 : ℝ) : EReal) := by
  rw [val_main_v10_apply, val_main_v8_apply, val_main_v9_apply, val_main_cst_1_apply, val_main_cst_0_apply]
  show Ideal.div (Ideal.ofBits .f32 0x00000000#32 + _) (Ideal.ofBits .f32 0x443F8000#32) = _
  rw [Ideal.ofBits_zero_f32, ofBits_766]
  refine congrArg (fun s => Ideal.div (0 + s) _) (Finset.sum_congr rfl fun k _ => ?_)
  rw [val_main_v7_apply, ← ref_pad_apply x0 x1 n ⟨k.val, by have := k.isLt; omega⟩]
  exact congrArg _ (funext fun a => Fin.ext (by match a with | ⟨0, _⟩ => rfl | ⟨1, _⟩ => rfl))

/-- The mean of the window starting at column 1, at row n. -/
theorem ref_mean1 (n : Fin 65536) :
    val_main_v14 (F := Ideal) x0 x1 (ix1 n)
      = Ideal.div (0 + ∑ k : Fin 766, pad (x1 (ix1 n)) (fun j => x0 (ix2 n j)) ⟨1 + k.val, by have := k.isLt; omega⟩) ((766 : ℝ) : EReal) := by
  rw [val_main_v14_apply, val_main_v12_apply, val_main_v13_apply, val_main_cst_3_apply, val_main_cst_2_apply]
  show Ideal.div (Ideal.ofBits .f32 0x00000000#32 + _) (Ideal.ofBits .f32 0x443F8000#32) = _
  rw [Ideal.ofBits_zero_f32, ofBits_766]
  refine congrArg (fun s => Ideal.div (0 + s) _) (Finset.sum_congr rfl fun k _ => ?_)
  rw [val_main_v11_apply, ← ref_pad_apply x0 x1 n ⟨1 + k.val, by have := k.isLt; omega⟩]
  exact congrArg _ (funext fun a => Fin.ext (by match a with | ⟨0, _⟩ => rfl | ⟨1, _⟩ => rfl))

/-- The mean of the window starting at column 2, at row n. -/
theorem ref_mean2 (n : Fin 65536) :
    val_main_v18 (F := Ideal) x0 x1 (ix1 n)
      = Ideal.div (0 + ∑ k : Fin 766, pad (x1 (ix1 n)) (fun j => x0 (ix2 n j)) ⟨2 + k.val, by have := k.isLt; omega⟩) ((766 : ℝ) : EReal) := by
  rw [val_main_v18_apply, val_main_v16_apply, val_main_v17_apply, val_main_cst_5_apply, val_main_cst_4_apply]
  show Ideal.div (Ideal.ofBits .f32 0x00000000#32 + _) (Ideal.ofBits .f32 0x443F8000#32) = _
  rw [Ideal.ofBits_zero_f32, ofBits_766]
  refine congrArg (fun s => Ideal.div (0 + s) _) (Finset.sum_congr rfl fun k _ => ?_)
  rw [val_main_v15_apply, ← ref_pad_apply x0 x1 n ⟨2 + k.val, by have := k.isLt; omega⟩]
  exact congrArg _ (funext fun a => Fin.ext (by match a with | ⟨0, _⟩ => rfl | ⟨1, _⟩ => rfl))

/-- The stacked means: column k of row n of the N x 3 matrix is the k-th mean's column vector at row n. -/
theorem ref_stack0 (n : Fin 65536) : val_main_v22 (F := Ideal) x0 x1 (ix2 n (0 : Fin 3)) = val_main_v10 (F := Ideal) x0 x1 (ix1 n) := by
  unfold val_main_v22
  refine (concatenate_apply_piece (t := S65536x3) (1 : Fin 2) ([⟨S65536x1, val_main_v19 (F := Ideal) x0 x1⟩, ⟨S65536x1, val_main_v20 (F := Ideal) x0 x1⟩, ⟨S65536x1, val_main_v21 (F := Ideal) x0 x1⟩] : List ((s : Shape) × (s.Idx → EReal)))
    Facts₀.concatenates_S65536x1_S65536x1_S65536x1_S65536x3_d1 (ix2 n (0 : Fin 3)) 0 (show (0 : ℕ) < 3 by decide) S65536x1 (val_main_v19 (F := Ideal) x0 x1) rfl rfl 0 rfl
    (ix2 n (0 : Fin 1)) (fun b hb => ?_) rfl).trans ?_
  · match b with
    | ⟨0, _⟩ => rfl
    | ⟨1, _⟩ => exact absurd rfl hb
  · rw [val_main_v19_apply]
    exact congrArg _ (funext fun a => Fin.ext (by match a with | ⟨0, _⟩ => rfl))

theorem ref_stack1 (n : Fin 65536) : val_main_v22 (F := Ideal) x0 x1 (ix2 n (1 : Fin 3)) = val_main_v14 (F := Ideal) x0 x1 (ix1 n) := by
  unfold val_main_v22
  refine (concatenate_apply_piece (t := S65536x3) (1 : Fin 2) ([⟨S65536x1, val_main_v19 (F := Ideal) x0 x1⟩, ⟨S65536x1, val_main_v20 (F := Ideal) x0 x1⟩, ⟨S65536x1, val_main_v21 (F := Ideal) x0 x1⟩] : List ((s : Shape) × (s.Idx → EReal)))
    Facts₀.concatenates_S65536x1_S65536x1_S65536x1_S65536x3_d1 (ix2 n (1 : Fin 3)) 1 (show (1 : ℕ) < 3 by decide) S65536x1 (val_main_v20 (F := Ideal) x0 x1) rfl rfl 1 rfl
    (ix2 n (0 : Fin 1)) (fun b hb => ?_) rfl).trans ?_
  · match b with
    | ⟨0, _⟩ => rfl
    | ⟨1, _⟩ => exact absurd rfl hb
  · rw [val_main_v20_apply]
    exact congrArg _ (funext fun a => Fin.ext (by match a with | ⟨0, _⟩ => rfl))

theorem ref_stack2 (n : Fin 65536) : val_main_v22 (F := Ideal) x0 x1 (ix2 n (2 : Fin 3)) = val_main_v18 (F := Ideal) x0 x1 (ix1 n) := by
  unfold val_main_v22
  refine (concatenate_apply_piece (t := S65536x3) (1 : Fin 2) ([⟨S65536x1, val_main_v19 (F := Ideal) x0 x1⟩, ⟨S65536x1, val_main_v20 (F := Ideal) x0 x1⟩, ⟨S65536x1, val_main_v21 (F := Ideal) x0 x1⟩] : List ((s : Shape) × (s.Idx → EReal)))
    Facts₀.concatenates_S65536x1_S65536x1_S65536x1_S65536x3_d1 (ix2 n (2 : Fin 3)) 2 (show (2 : ℕ) < 3 by decide) S65536x1 (val_main_v21 (F := Ideal) x0 x1) rfl rfl 2 rfl
    (ix2 n (0 : Fin 1)) (fun b hb => ?_) rfl).trans ?_
  · match b with
    | ⟨0, _⟩ => rfl
    | ⟨1, _⟩ => exact absurd rfl hb
  · rw [val_main_v21_apply]
    exact congrArg _ (funext fun a => Fin.ext (by match a with | ⟨0, _⟩ => rfl))

/-- ENTRY (n, d) OF THE REFERENCE'S RESULT: the three window means of row n weighted by channel d's taps, plus channel
    d's bias. -/
theorem ref_apply (n : Fin 65536) (d : Fin 512) :
    val_main_v27 (F := Ideal) x0 x1 x2 x3 (ix2 n d)
      = Ideal.div (0 + ∑ k : Fin 766, pad (x1 (ix1 n)) (fun j => x0 (ix2 n j)) ⟨k.val, by have := k.isLt; omega⟩) ((766 : ℝ) : EReal) * x2 (ix2 d (0 : Fin 3))
        + Ideal.div (0 + ∑ k : Fin 766, pad (x1 (ix1 n)) (fun j => x0 (ix2 n j)) ⟨1 + k.val, by have := k.isLt; omega⟩) ((766 : ℝ) : EReal) * x2 (ix2 d (1 : Fin 3))
        + Ideal.div (0 + ∑ k : Fin 766, pad (x1 (ix1 n)) (fun j => x0 (ix2 n j)) ⟨2 + k.val, by have := k.isLt; omega⟩) ((766 : ℝ) : EReal) * x2 (ix2 d (2 : Fin 3))
        + x3 (ix1 d) := by
  rw [val_main_v27_apply, val_main_v24_apply, Fin.sum_univ_three, val_main_v26_apply, val_main_v25_apply,
    val_main_v23_apply, val_main_v23_apply, val_main_v23_apply]
  rw [show lidx_main_v24 (ix2 n d) 0 = ix2 n (0 : Fin 3) from funext fun a => Fin.ext (by match a with | ⟨0, _⟩ => rfl | ⟨1, _⟩ => rfl),
    show lidx_main_v24 (ix2 n d) 1 = ix2 n (1 : Fin 3) from funext fun a => Fin.ext (by match a with | ⟨0, _⟩ => rfl | ⟨1, _⟩ => rfl),
    show lidx_main_v24 (ix2 n d) 2 = ix2 n (2 : Fin 3) from funext fun a => Fin.ext (by match a with | ⟨0, _⟩ => rfl | ⟨1, _⟩ => rfl),
    show idx_main_v23 (ridx_main_v24 (ix2 n d) 0) = ix2 d (0 : Fin 3) from funext fun a => Fin.ext (by match a with | ⟨0, _⟩ => rfl | ⟨1, _⟩ => rfl),
    show idx_main_v23 (ridx_main_v24 (ix2 n d) 1) = ix2 d (1 : Fin 3) from funext fun a => Fin.ext (by match a with | ⟨0, _⟩ => rfl | ⟨1, _⟩ => rfl),
    show idx_main_v23 (ridx_main_v24 (ix2 n d) 2) = ix2 d (2 : Fin 3) from funext fun a => Fin.ext (by match a with | ⟨0, _⟩ => rfl | ⟨1, _⟩ => rfl),
    show idx_main_v25 (idx_main_v26 (ix2 n d)) = ix1 d from funext fun a => Fin.ext (by match a with | ⟨0, _⟩ => rfl),
    ref_stack0, ref_stack1, ref_stack2, ref_mean0, ref_mean1, ref_mean2]
  rfl

/-- THE REFERENCE IS embed on an input of real numbers. -/
theorem ref_eq_embed (hx : ∀ i, ∃ a : ℝ, x0 i = (a : EReal)) :
    val_main_v27 (F := Ideal) x0 x1 x2 x3 = embed x0 x1 x2 x3 := by
  funext i
  obtain ⟨n, d, rfl⟩ : ∃ (n : Fin 65536) (d : Fin 512), i = ix2 n d := ⟨i 0, i 1, eq_ix2 i⟩
  rw [ref_apply]
  unfold embed
  rw [taps_eq_means _ (pad_real _ _ fun j => hx _)]

end Cert.PatchMean

end
-- ==== Proof.Finite.lean ====
/-
  Under the precondition every entry of the input is a real number.

  The precondition is the conjunction of three tests, one per float argument: the absolute value of every entry is below
  +inf. The first test, read at an entry of the input, says the entry is neither infinity.
-/
import proofs.«110006_j15994458211143_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PatchMean

open Idealize.ShloMosaic Cert.Pre_finite_inputs

instance : Subsingleton S_.Idx := ⟨fun a b => funext fun d => d.elim0⟩

/-- The word of +inf denotes the top of the extended reals. -/
theorem ofBits_inf : Ideal.ofBits .f32 0x7F800000#32 = ⊤ := by
  simp [Ideal.ofBits, Ideal.ieee]

/-- An extended real whose absolute value is below the top is a real number. -/
theorem real_of_abs_lt_top (x : EReal) (h : max x (-x) < ⊤) : ∃ a : ℝ, x = (a : EReal) := by
  induction x using EReal.rec with
  | bot => simp at h
  | coe a => exact ⟨a, rfl⟩
  | top => simp at h

/-- UNDER THE PRECONDITION the input's entries are real numbers. -/
theorem input_real [Cert.Pre_finite_inputs.Facts] (a0 : FVec Ideal S65536x768 .f32) (a1 : IVec S65536 32)
    (a2 : FVec Ideal S512x3 .f32) (a3 : FVec Ideal S512 .f32)
    (h : Cert.Pre_finite_inputs.fn (F := Ideal) a0 a1 a2 a3 = fun _ => 1#1) (i : S65536x768.Idx) :
    ∃ a : ℝ, a0 i = (a : EReal) := by
  have h0 := congrFun h ValueIdx.ix0
  dsimp only [Cert.Pre_finite_inputs.fn] at h0
  obtain ⟨h8, -⟩ := IntOp.andi_eq_one.1 h0
  obtain ⟨h3, -⟩ := IntOp.andi_eq_one.1 h8
  have e := Host.reduce_andi_all _ _ _ _ _ h3 i
  have e' : Ideal.cmp .olt (max (a0 i) (-(a0 i))) (Ideal.ofBits .f32 0x7F800000#32) = 1#1 := e
  rw [ofBits_inf] at e'
  refine real_of_abs_lt_top _ ?_
  by_contra hn
  simp [Ideal.cmp, hn] at e'

end Cert.PatchMean

end
-- ==== Proof.lean ====
/- The proof of Cert.Claim: a masked patch embedding — each row of the input padded with zeros from its length on, a
   three-tap convolution over the row averaged over its 766 windows, plus a bias — computed by a kernel that works on
   blocks of 1024 rows, against the same in plain array operations.

   The mathematics. By linearity the averaged convolution is the three window means (the windows of 766 columns starting
   at columns 0, 1, 2) weighted by the three taps. The reference computes the three window sums directly and divides
   each by 766. The kernel sums each padded row whole once and subtracts, for each window, the two columns the window
   leaves out, then multiplies by the constant 1/766; this agrees with the window sum exactly when the row's entries
   are finite, which the precondition gives (with an infinite entry the kernel's difference is ⊤ - ⊤). The division by
   766 is the product with 1/766 on every extended real; the matrix product with the transposed weights over the three
   taps is the sum of three products.

   Proof/Spec.lean states the entry as a function of one row (taps), the whole result (embed), and proves the law
   (taps_eq_means). Proof/Payload.lean reads the kernel body's arithmetic at an entry of its block. Proof/KernelValue.lean
   goes from the blocks to the result array: what grid point t writes back is block t of embed of the arguments, the
   blocks cover the array, so the kernel's run ends with the result at embed. Proof/RefRead.lean reads the reference's
   run at an entry and joins it to embed by the law. Proof/Finite.lean reads the precondition at an entry of the input.
   Proof/LibKeepdims.lean holds three general lemmas on a row sum that keeps its axis.

   The three frames: the kernels' are the generated frame certificates; the reference's is its generated run with the
   result dropped. preserves: one conjunct per occurrence of the named constant 1/766, each by the rule's statement. -/
import proofs.«110006_j15994458211143_1_alg».proof.Defs
import proofs.«110006_j15994458211143_1_alg».proof.Proof.Gen.Kernel
import proofs.«110006_j15994458211143_1_alg».proof.Proof.Gen.Kernel.Skeleton
import proofs.«110006_j15994458211143_1_alg».proof.Proof.Gen.Kernel.Launch
import proofs.«110006_j15994458211143_1_alg».proof.Proof.Gen.Kernel.Points
import proofs.«110006_j15994458211143_1_alg».proof.Proof.Gen.Kernel.Frame
import proofs.«110006_j15994458211143_1_alg».proof.Proof.Gen.KernelIdeal
import proofs.«110006_j15994458211143_1_alg».proof.Proof.Gen.KernelIdeal.Skeleton
import proofs.«110006_j15994458211143_1_alg».proof.Proof.Gen.KernelIdeal.Launch
import proofs.«110006_j15994458211143_1_alg».proof.Proof.Gen.KernelIdeal.Points
import proofs.«110006_j15994458211143_1_alg».proof.Proof.Gen.KernelIdeal.Frame
import proofs.«110006_j15994458211143_1_alg».proof.Proof.Gen.ReferenceIdeal
import proofs.«110006_j15994458211143_1_alg».proof.Proof.Gen.Pre_finite_inputs
import proofs.«110006_j15994458211143_1_alg».proof.Proof.Gen.KernelIdeal.Value
import proofs.«110006_j15994458211143_1_alg».proof.Proof.Gen.ReferenceIdeal.Run
import proofs.«110006_j15994458211143_1_alg».proof.Proof.Gen.ReferenceIdeal.Read
import proofs.«110006_j15994458211143_1_alg».proof.Proof.KernelValue
import proofs.«110006_j15994458211143_1_alg».proof.Proof.RefRead
import proofs.«110006_j15994458211143_1_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The certificate's table gives the kernel's reciprocal constant the value 1/766, at each of its three occurrences. -/
theorem preserves : Cert.preserves_Kernel_KernelIdeal :=
  ⟨IdealRules.named_const.statement Cert.KernelIdeal.κ "inv_766" .f32 0x3AAB1CBE#32 ((1 / 766 : ℝ) : EReal) rfl,
    IdealRules.named_const.statement Cert.KernelIdeal.κ "inv_766" .f32 0x3AAB1CBE#32 ((1 / 766 : ℝ) : EReal) rfl,
    IdealRules.named_const.statement Cert.KernelIdeal.κ "inv_766" .f32 0x3AAB1CBE#32 ((1 / 766 : ℝ) : EReal) rfl⟩

/-- At the ideal values, from memories agreeing on the arguments, the kernel's result array ends at embed of the
    arguments (its run read block by block) and the reference's at its operations' term, which on a finite input is
    embed of the same arguments. -/
theorem algebraic : Cert.algebraic_KernelIdeal_ReferenceIdeal := by
  intro m ρ m' ρ' hpre hagree
  refine ⟨fun c => Cert.PatchMean.result m c, Cert.PatchMean.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v27_eq]
  exact Cert.PatchMean.ref_eq_embed _ _ _ _ (Cert.PatchMean.input_real _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
